-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512 .f32) (main_arg5 : FVec F S512x512 .f32) (main_arg6 : FVec F S512 .f32) (main_arg7 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S32768x256 .f32) (main_arg1 : FVec F S32768x512 .f32) (main_arg2 : FVec F S32768x512 .f32) (main_arg3 : FVec F S512x256 .f32) (main_arg4 : FVec F S512 .f32) (main_arg5 : FVec F S512x512 .f32) (main_arg6 : FVec F S512 .f32) (main_arg7 : FVec F S512 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_v13 main_v16
-- ==== Kernel.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S_ : Shape := ⟨0, ![]⟩
abbrev S1024x256 : Shape := ⟨2, ![1024, 256]⟩
abbrev S1024x512 : Shape := ⟨2, ![1024, 512]⟩
abbrev S1x512 : Shape := ⟨2, ![1, 512]⟩

abbrev nBuf : Space → Nat
  | .hbm => 20
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S512x256, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S512x256, .bf16⟩
  | .hbm, ⟨9, _⟩ => ⟨S512x512, .bf16⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S32768x512, .f32⟩
  | .hbm, ⟨19, _⟩ => ⟨S32768x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S512x256, .bf16⟩
  | .local _ .vmem, ⟨7, _⟩ => ⟨S512x512, .bf16⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  bcast_S_S512 : S_.BroadcastsInDim S512 (![] : Fin 0 → Fin S512.rank)
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S1024x512 : S1x512.Broadcasts S1024x512
  natLt_1_32 : 1 < 32
  dot_S1024x256_S512x256_S1024x512_1_1_0_0_n_n_wf : DotDims.WF S1024x256 S512x256 S1024x512 [1] [1] [0] [0] [] []
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S32768x512.size a
  hwx0_2 : ∀ i : grid0.Coords, EltTy.bits .f32 = 32 ∨ (Rect.block (s := S32768x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S32768x512.size a
  hwx0_8 : ∀ i : grid0.Coords, EltTy.bits .f32 = 32 ∨ (Rect.block (s := S32768x512) S1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S32768x512.size a
  hwx0_9 : ∀ i : grid0.Coords, EltTy.bits .f32 = 32 ∨ (Rect.block (s := S32768x512) S1024x512.size (cc0_transform_9 i) (hinb0_9 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8_1) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x256 : Shape := ⟨2, ![32768, 256]⟩
abbrev S32768x512 : Shape := ⟨2, ![32768, 512]⟩
abbrev S512x256 : Shape := ⟨2, ![512, 256]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x512, .f32⟩
  | .hbm, ⟨2, _⟩ => ⟨S32768x512, .f32⟩
  | .hbm, ⟨3, _⟩ => ⟨S512x256, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512, .f32⟩
  | .hbm, ⟨8, _⟩ => ⟨S32768x512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S_, .f32⟩
  | .hbm, ⟨36, _⟩ => ⟨S32768x512, .f32⟩
  | .hbm, ⟨37, _⟩ => ⟨S32768x512, .f32⟩
  | .hbm, ⟨38, _⟩ => ⟨S_, .f32⟩
  | .hbm, ⟨39, _⟩ => ⟨S32768x512, .f32⟩
  | .hbm, ⟨40, _⟩ => ⟨S32768x512, .i1⟩
  | .hbm, ⟨41, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512 : S_.BroadcastsInDim S512 (![] : Fin 0 → Fin S512.rank)
  bcast_S_S32768x512 : S_.BroadcastsInDim S32768x512 (![] : Fin 0 → Fin S32768x512.rank)
  dot_S32768x256_S512x256_S32768x512_1_1_0_0_n_n_wf : DotDims.WF S32768x256 S512x256 S32768x512 [1] [1] [0] [0] [] []
  dot_S32768x512_S512x512_S32768x512_1_1_0_0_n_n_wf : DotDims.WF S32768x512 S512x512 S32768x512 [1] [1] [0] [0] [] []

variable [Facts₀]

def dot_S32768x256_S512x256_S32768x512_1_1_0_0_n_n : DotDims S32768x256 S512x256 S32768x512 where
  lhsContracting := [1]
  rhsContracting := [1]
  lhsNonContracting := [0]
  rhsNonContracting := [0]
  lhsBatch := []
  rhsBatch := []
  wf := dot_S32768x256_S512x256_S32768x512_1_1_0_0_n_n_wf
def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf

class Facts : Prop extends Facts₀ where

variable [Facts]
-- ==== Proof.LifSpec.lean ====
/-
  One time step of a layer of leaky integrate-and-fire neurons, entry by entry, on the extended reals.

  A neuron o of batch row p receives the current
      I(p, o) = Σ_k x(p, k) · Wd(o, k)  +  Σ_h s(p, h) · Wr(o, h)  +  bd(o)  +  br(o),
  the dense drive of the input spikes x, the recurrent drive of the previous spikes s, and the two biases.  With the
  decay a(o) = exp(−1 / τ(o)) of its membrane over one step, the potential becomes
      v'(p, o) = v(p, o) · a(o)  +  (1 − a(o)) · I(p, o)  −  ½ · s(p, o)
  (the last term the soft reset by the threshold ½ after a spike), and the neuron fires, s'(p, o) = 1, exactly when
  v'(p, o) − ½ > 0, else s'(p, o) = 0.

  The four terms of the current may be added in any order and grouping: the extended reals are a commutative monoid
  under addition (with +∞ + −∞ = −∞ by convention), so no finiteness is needed for that.  A truth value read as a
  number is 0 or 1 whether its one bit is read unsigned, or first widened with zeros to a 32-bit word and read signed.
-/
import Idealize.ShloMosaic.Lib.ValueIdx
import Idealize.ShloMosaic.PureOps.Ideal

noncomputable section

open scoped BigOperators

namespace Cert.Lif

open Idealize.ShloMosaic Idealize.ShloMosaic.ValueIdx

/-- The membrane's decay factor over one time step, exp(−1/τ): the quotient and the exponential are the extended
    reals' (−1 the exact value of its binary pattern). -/
def decay (tau : EReal) : EReal := Ideal.exp (Ideal.div (Ideal.ofBits .f32 0xBF800000#32) tau)

/-- A neuron's input current: the two weighted sums added, then the sum of the two biases. -/
def current (dense recur bd br : EReal) : EReal := (dense + recur) + (bd + br)

/-- The same four terms added one after the other in the order dense drive, first bias, recurrent drive, second bias:
    commutativity and associativity of the extended reals' addition. -/
theorem current_regroup (dense recur bd br : EReal) : ((dense + bd) + recur) + br = current dense recur bd br := by
  unfold current
  rw [add_assoc (dense + bd), add_add_add_comm]

/-- The potential after the step: the old potential decayed, plus the current weighted by 1 − decay, minus half the
    previous spike (1 and ½ the exact values of their binary patterns). -/
def potential (v s a cur : EReal) : EReal :=
  (v * a + (Ideal.ofBits .f32 0x3F800000#32 - a) * cur) - Ideal.ofBits .f32 0x3F000000#32 * s

/-- Whether the neuron fires: its new potential less the threshold ½ is greater than zero. -/
def fires (v : EReal) : BitVec 1 :=
  Ideal.cmp .ogt (v - Ideal.ofBits .f32 0x3F000000#32) (Ideal.ofBits .f32 0x00000000#32)

/-- A truth value as a number: 1 or 0, the bit read unsigned. -/
def indicator (b : BitVec 1) : EReal := ((b.toNat : ℝ) : EReal)

/-- A truth value widened with zeros to a 32-bit word and read as a signed integer is the same 1 or 0. -/
theorem signed_of_widened (b : BitVec 1) : (((b.setWidth 32).toInt : ℝ) : EReal) = indicator b := by
  unfold indicator
  by_cases h : b = 1#1
  · subst h
    have h1 : ((1#1 : BitVec 1).setWidth 32).toInt = 1 := by decide
    have h2 : (1#1 : BitVec 1).toNat = 1 := by decide
    rw [h1, h2]; norm_num
  · obtain rfl := eq_zero_of_ne_one h
    have h1 : ((0#1 : BitVec 1).setWidth 32).toInt = 0 := by decide
    have h2 : (0#1 : BitVec 1).toNat = 0 := by decide
    rw [h1, h2]; norm_num

/-! ## The two result arrays of a batch of 32768 rows over 256 inputs and 512 neurons -/

/-- The current of neuron `o` in row `p`. -/
def currentAt (x : (⟨2, ![32768, 256]⟩ : Shape).Idx → EReal) (s : (⟨2, ![32768, 512]⟩ : Shape).Idx → EReal)
    (Wd : (⟨2, ![512, 256]⟩ : Shape).Idx → EReal) (bd : (⟨1, ![512]⟩ : Shape).Idx → EReal)
    (Wr : (⟨2, ![512, 512]⟩ : Shape).Idx → EReal) (br : (⟨1, ![512]⟩ : Shape).Idx → EReal)
    (p : Fin 32768) (o : Fin 512) : EReal :=
  current (∑ k : Fin 256, x (ix2 p k) * Wd (ix2 o k)) (∑ h : Fin 512, s (ix2 p h) * Wr (ix2 o h)) (bd (ix1 o)) (br (ix1 o))

/-- The new potentials, as one function of the eight arrays. -/
def potentials (x : (⟨2, ![32768, 256]⟩ : Shape).Idx → EReal) (v s : (⟨2, ![32768, 512]⟩ : Shape).Idx → EReal)
    (Wd : (⟨2, ![512, 256]⟩ : Shape).Idx → EReal) (bd : (⟨1, ![512]⟩ : Shape).Idx → EReal)
    (Wr : (⟨2, ![512, 512]⟩ : Shape).Idx → EReal) (br tau : (⟨1, ![512]⟩ : Shape).Idx → EReal) :
    (⟨2, ![32768, 512]⟩ : Shape).Idx → EReal := fun i =>
  potential (v i) (s i) (decay (tau (ix1 (i 1)))) (currentAt x s Wd bd Wr br (i 0) (i 1))

/-- The new spikes: the indicator of firing at the new potential. -/
def spikes (x : (⟨2, ![32768, 256]⟩ : Shape).Idx → EReal) (v s : (⟨2, ![32768, 512]⟩ : Shape).Idx → EReal)
    (Wd : (⟨2, ![512, 256]⟩ : Shape).Idx → EReal) (bd : (⟨1, ![512]⟩ : Shape).Idx → EReal)
    (Wr : (⟨2, ![512, 512]⟩ : Shape).Idx → EReal) (br tau : (⟨1, ![512]⟩ : Shape).Idx → EReal) :
    (⟨2, ![32768, 512]⟩ : Shape).Idx → EReal := fun i =>
  indicator (fires (potentials x v s Wd bd Wr br tau i))

end Cert.Lif

end
-- ==== Proof.RefIsSpec.lean ====
/-
  The reference's two results are the layer step of LifSpec, entry by entry.

  The reference computes the current as ((dense + bd) + recurrent) + br, each bias first laid out as a row [1, 512] and
  repeated down the 32768 rows; its decay exp(−1/τ) and the weight 1 − decay are per-neuron vectors repeated the same
  way.  Read at an entry (p, o), every repeated vector is its value at neuron o, each matrix product against the rows
  of a weight matrix is the sum over the contracted coordinate, and what is left differs from the specification only in
  the order in which the current's four terms are added.
-/
import proofs.«169961_j49082886259318_2_alg».proof.Proof.Gen.ReferenceIdeal.Read
import proofs.«169961_j49082886259318_2_alg».proof.Proof.LifSpec

noncomputable section

open scoped BigOperators

namespace Cert.ReferenceIdeal.RefValue

open Cert.ReferenceIdeal Cert.ReferenceIdeal.Read Cert.Lif
open Idealize.ShloMosaic Idealize.ShloMosaic.ValueIdx

/-! ## The composed index maps of the reference's layout operations -/

/-- The dense product reads row `p` of the input at the contracted coordinate. -/
theorem dense_left (i : S32768x512.Idx) (k : Fin 256) : lidx_main_v0 i k = ix2 (i 0) k :=
  funext fun a => Fin.ext (by match a with | ⟨0, _⟩ => rfl | ⟨1, _⟩ => rfl)
/-- and row `o` of the dense weights. -/
theorem dense_right (i : S32768x512.Idx) (k : Fin 256) : ridx_main_v0 i k = ix2 (i 1) k :=
  funext fun a => Fin.ext (by match a with | ⟨0, _⟩ => rfl | ⟨1, _⟩ => rfl)
/-- The recurrent product reads row `p` of the previous spikes at the contracted coordinate. -/
theorem recur_left (i : S32768x512.Idx) (k : Fin 512) : lidx_main_v4 i k = ix2 (i 0) k :=
  funext fun a => Fin.ext (by match a with | ⟨0, _⟩ => rfl | ⟨1, _⟩ => rfl)
/-- and row `o` of the recurrent weights. -/
theorem recur_right (i : S32768x512.Idx) (k : Fin 512) : ridx_main_v4 i k = ix2 (i 1) k :=
  funext fun a => Fin.ext (by match a with | ⟨0, _⟩ => rfl | ⟨1, _⟩ => rfl)

/-- A per-neuron vector laid out as a row and repeated down the rows is read at (p, o) at neuron `o`: the dense bias, -/
theorem row_bd (i : S32768x512.Idx) : idx_main_v1 (idx_main_v2 i) = ix1 (i 1) :=
  funext fun a => Fin.ext (by match a with | ⟨0, _⟩ => rfl)
/-- the recurrent bias, -/
theorem row_br (i : S32768x512.Idx) : idx_main_v6 (idx_main_v7 i) = ix1 (i 1) :=
  funext fun a => Fin.ext (by match a with | ⟨0, _⟩ => rfl)
/-- the decay, -/
theorem row_decay (i : S32768x512.Idx) : idx_main_v12 (idx_main_v13 i) = ix1 (i 1) :=
  funext fun a => Fin.ext (by match a with | ⟨0, _⟩ => rfl)
/-- and the weight 1 − decay. -/
theorem row_gain (i : S32768x512.Idx) : idx_main_v17 (idx_main_v18 i) = ix1 (i 1) :=
  funext fun a => Fin.ext (by match a with | ⟨0, _⟩ => rfl)

/-! ## The two results -/

/-- The reference's first result is the new potentials: its current is the specification's four terms added in the order
    dense, dense bias, recurrent, recurrent bias (`Lif.current_regroup`). -/
theorem potentials_eq (x0 : (⟨S32768x256, .f32⟩ : BufTy).Contents (Elt Ideal)) (x1 x2 : (⟨S32768x512, .f32⟩ : BufTy).Contents (Elt Ideal))
    (x3 : (⟨S512x256, .f32⟩ : BufTy).Contents (Elt Ideal)) (x4 : (⟨S512, .f32⟩ : BufTy).Contents (Elt Ideal))
    (x5 : (⟨S512x512, .f32⟩ : BufTy).Contents (Elt Ideal)) (x6 x7 : (⟨S512, .f32⟩ : BufTy).Contents (Elt Ideal)) :
    val_main_v23 (F := Ideal) x0 x1 x2 x3 x4 x5 x6 x7 = potentials x0 x1 x2 x3 x4 x5 x6 x7 := by
  funext i
  simp only [val_main_v23_apply, val_main_v22_apply, val_main_v21_apply, val_main_cst_1_apply, val_main_v20_apply,
    val_main_v19_apply, val_main_v18_apply, val_main_v17_apply, val_main_v16_apply, val_main_v15_apply,
    val_main_cst_0_apply, val_main_v14_apply, val_main_v13_apply, val_main_v12_apply, val_main_v11_apply,
    val_main_v10_apply, val_main_v9_apply, val_main_cst_apply, val_main_v8_apply, val_main_v7_apply, val_main_v6_apply,
    val_main_v5_apply, val_main_v4_apply, val_main_v3_apply, val_main_v2_apply, val_main_v1_apply, val_main_v0_apply,
    dense_left, dense_right, recur_left, recur_right, row_bd, row_br, row_decay, row_gain]
  unfold potentials potential decay currentAt
  rw [← current_regroup]
  rfl

/-- The reference's second result is the new spikes: the comparison of the new potential less ½ with zero, its truth
    value read unsigned. -/
theorem spikes_eq (x0 : (⟨S32768x256, .f32⟩ : BufTy).Contents (Elt Ideal)) (x1 x2 : (⟨S32768x512, .f32⟩ : BufTy).Contents (Elt Ideal))
    (x3 : (⟨S512x256, .f32⟩ : BufTy).Contents (Elt Ideal)) (x4 : (⟨S512, .f32⟩ : BufTy).Contents (Elt Ideal))
    (x5 : (⟨S512x512, .f32⟩ : BufTy).Contents (Elt Ideal)) (x6 x7 : (⟨S512, .f32⟩ : BufTy).Contents (Elt Ideal)) :
    val_main_v28 (F := Ideal) x0 x1 x2 x3 x4 x5 x6 x7 = spikes x0 x1 x2 x3 x4 x5 x6 x7 := by
  funext i
  rw [val_main_v28_apply, val_main_v27_apply, val_main_v26_apply, val_main_cst_3_apply, val_main_v25_apply,
    val_main_v24_apply, val_main_cst_2_apply, potentials_eq]
  rfl

end Cert.ReferenceIdeal.RefValue

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.KernelPayload.lean ====
/-
  What the kernel's body stores for one block of 1024 batch rows, read at an entry (p, o).

  The body multiplies the block's input rows and its previous-spike rows against the ROWS of the two weight matrices
  (both products onto a zero accumulator, so each entry is the plain sum over the contracted coordinate; the narrowing
  of the factors to a shorter float format is the identity on the extended reals), adds the two products, then the
  bias vector laid out as a row and repeated down the block, and combines the result with the block's potentials and
  the two per-neuron vectors (decay and gain, repeated the same way):
      v · decay(o) + gain(o) · ((dense + recurrent) + bias(o)) − ½ · s.
  The second store is the indicator of that value less ½ being positive, the truth bit widened with zeros to a word and
  read signed — which is the bit read unsigned (`Lif.signed_of_widened`).
-/
import proofs.«169961_j49082886259318_2_alg».proof.Proof.Gen.KernelIdeal.Skeleton
import proofs.«169961_j49082886259318_2_alg».proof.Proof.LibMatmulRows
import proofs.«169961_j49082886259318_2_alg».proof.Proof.LibRowOps
import proofs.«169961_j49082886259318_2_alg».proof.Proof.LifSpec
import Idealize.ShloMosaic.Lib.Pipeline.Value
import Idealize.ShloMosaic.Lib.ValueIdx

noncomputable section

open scoped BigOperators

namespace Cert.KernelIdeal.Body

open Cert.KernelIdeal Cert.KernelIdeal.Gen Cert.Lif
open Idealize.ShloMosaic Idealize.ShloMosaic.ValueIdx

/-- One block's value before the soft reset is subtracted and the reset itself, as one expression of the entries
    the block's row `p` and the neuron `o` select. -/
def blockPotential (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (p : Fin 1024) (o : Fin 512) : EReal :=
  (v22 (ix2 p o) * v16 (ix1 o)
      + v19 (ix1 o) * (((∑ k : Fin 256, v0 (ix2 p k) * v4 (ix2 o k)) + (∑ h : Fin 512, v2 (ix2 p h) * v7 (ix2 o h))) + v10 (ix1 o)))
    - Ideal.ofBits .f32 0x3F000000#32 * v2 (ix2 p o)

/-- The first store (the new potentials of the block) at (p, o). -/
theorem potential_apply (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (p : Fin 1024) (o : Fin 512) :
    k0_pay1 (F := Ideal) v0 v2 v4 v7 v10 v16 v19 v22 (ix2 p o) = blockPotential v0 v2 v4 v7 v10 v16 v19 v22 p o := by
  have dense : matmul (F := Ideal) (φ₁ := .bf16) (φ₂ := .bf16) dot_S1024x256_S512x256_S1024x512_1_1_0_0_n_n none
        (truncf (F := Ideal) .bf16 (v0 : FVec Ideal S1024x256 .f32) bitsLt_bf16_f32)
        (v4 : FVec Ideal S512x256 .bf16)
        (constant S1024x512 .f32 0x00000000#32) (ix2 p o)
      = ∑ k : Fin 256, v0 (ix2 p k) * v4 (ix2 o k) := by
    exact Cert.MatmulRows.zero_acc_apply (φ₁ := .bf16) (φ₂ := .bf16) _ none _ _ p o
  have recur : matmul (F := Ideal) (φ₁ := .bf16) (φ₂ := .bf16) dot_S1024x512_S512x512_S1024x512_1_1_0_0_n_n none
        (truncf (F := Ideal) .bf16 (v2 : FVec Ideal S1024x512 .f32) bitsLt_bf16_f32)
        (v7 : FVec Ideal S512x512 .bf16)
        (constant S1024x512 .f32 0x00000000#32) (ix2 p o)
      = ∑ h : Fin 512, v2 (ix2 p h) * v7 (ix2 o h) := by
    exact Cert.MatmulRows.zero_acc_apply (φ₁ := .bf16) (φ₂ := .bf16) _ none _ _ p o
  unfold k0_pay1
  simp only [subf_apply, addf_apply, mulf_apply, broadcast_apply, Cert.RowOps.row_repeated_apply, shapeCast_self]
  rw [dense, recur]
  rfl

/-- The second store (the new spikes of the block) at (p, o): the indicator of the first store's value there firing. -/
theorem spike_apply (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (p : Fin 1024) (o : Fin 512) :
    k0_pay2 (F := Ideal) v0 v2 v4 v7 v10 v16 v19 v22 (ix2 p o)
      = indicator (fires (blockPotential v0 v2 v4 v7 v10 v16 v19 v22 p o)) := by
  rw [← signed_of_widened, ← potential_apply]
  rfl

/-- The first store at any index of the block: the expression at the index's two coordinates. -/
theorem potential_at (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (j : (⟨2, ![1024, 512]⟩ : Shape).Idx) :
    k0_pay1 (F := Ideal) v0 v2 v4 v7 v10 v16 v19 v22 j = blockPotential v0 v2 v4 v7 v10 v16 v19 v22 (j 0) (j 1) := by
  exact (congrArg (k0_pay1 (F := Ideal) v0 v2 v4 v7 v10 v16 v19 v22) (eq_ix2 j)).trans
    (potential_apply v0 v2 v4 v7 v10 v16 v19 v22 (j 0) (j 1))

/-- The second store at any index of the block. -/
theorem spike_at (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (j : (⟨2, ![1024, 512]⟩ : Shape).Idx) :
    k0_pay2 (F := Ideal) v0 v2 v4 v7 v10 v16 v19 v22 j
      = indicator (fires (blockPotential v0 v2 v4 v7 v10 v16 v19 v22 (j 0) (j 1))) := by
  exact (congrArg (k0_pay2 (F := Ideal) v0 v2 v4 v7 v10 v16 v19 v22) (eq_ix2 j)).trans
    (spike_apply v0 v2 v4 v7 v10 v16 v19 v22 (j 0) (j 1))

/-- The block expression is the layer step at an array entry `i` of neuron `o`, as soon as the block's row `p` of the
    input spikes, of the previous spikes and of the potentials are row `i 0` of the whole arrays, the weight blocks are
    the weight matrices, and the three per-neuron blocks are the bias sum, the decay and one less the decay. -/
theorem blockPotential_eq_layer
    (v0 : (⟨2, ![1024, 256]⟩ : Shape).Idx → EReal) (v2 : (⟨2, ![1024, 512]⟩ : Shape).Idx → EReal)
    (v4 : (⟨2, ![512, 256]⟩ : Shape).Idx → EReal) (v7 : (⟨2, ![512, 512]⟩ : Shape).Idx → EReal)
    (v10 v16 v19 : (⟨1, ![512]⟩ : Shape).Idx → EReal) (v22 : (⟨2, ![1024, 512]⟩ : Shape).Idx → EReal)
    (X : (⟨2, ![32768, 256]⟩ : Shape).Idx → EReal) (V S : (⟨2, ![32768, 512]⟩ : Shape).Idx → EReal)
    (Wd : (⟨2, ![512, 256]⟩ : Shape).Idx → EReal) (bd : (⟨1, ![512]⟩ : Shape).Idx → EReal)
    (Wr : (⟨2, ![512, 512]⟩ : Shape).Idx → EReal) (br tau : (⟨1, ![512]⟩ : Shape).Idx → EReal)
    (p : Fin 1024) (o : Fin 512) (i : (⟨2, ![32768, 512]⟩ : Shape).Idx) (ho : i 1 = o)
    (hx : ∀ k : Fin 256, v0 (ix2 p k) = X (ix2 (i 0) k))
    (hs : ∀ h : Fin 512, v2 (ix2 p h) = S (ix2 (i 0) h))
    (hsi : v2 (ix2 p o) = S i) (hvi : v22 (ix2 p o) = V i)
    (hwd : ∀ k : Fin 256, v4 (ix2 o k) = Wd (ix2 o k)) (hwr : ∀ h : Fin 512, v7 (ix2 o h) = Wr (ix2 o h))
    (hb : v10 (ix1 o) = bd (ix1 o) + br (ix1 o))
    (ha : v16 (ix1 o) = decay (tau (ix1 o)))
    (hg : v19 (ix1 o) = Ideal.ofBits .f32 0x3F800000#32 - decay (tau (ix1 o))) :
    blockPotential v0 v2 v4 v7 v10 v16 v19 v22 p o = potentials X V S Wd bd Wr br tau i := by
  unfold blockPotential potentials potential currentAt current
  rw [ho, hvi, hsi, ha, hg, hb]
  simp only [hx, hs, hwd, hwr]

end Cert.KernelIdeal.Body

end
-- ==== Proof.HostPrefix.lean ====
/-
  What the kernel's one region finds in the five arrays the host prepares for it, as functions of the arguments.

  Before the call the host narrows the two weight matrices to a shorter float format (the identity on the extended
  reals), adds the two bias vectors, computes the per-neuron decay exp(−1/τ) and the gain 1 − decay.  Each of these is
  the host operations' own term of the argument arrays, read entry by entry.
-/
import proofs.«169961_j49082886259318_2_alg».proof.Proof.Gen.KernelIdeal.Frame
import proofs.«169961_j49082886259318_2_alg».proof.Proof.LifSpec
import Idealize.ShloMosaic.Lib.StableHlo.Run

noncomputable section

namespace Cert.KernelIdeal.Host

open Cert.KernelIdeal Cert.KernelIdeal.Gen Cert.Lif
open Idealize.ShloMosaic Idealize.ShloMosaic.TcCoe Idealize.SL.Sem Idealize.ShloMosaic.StableHlo

/-- Two per-neuron vectors added neuron by neuron. -/
def vecSum (a b : S512.Idx → EReal) : S512.Idx → EReal := fun i => a i + b i

/-- The decay of every neuron from the vector of time constants. -/
def vecDecay (tau : S512.Idx → EReal) : S512.Idx → EReal := fun i => decay (tau i)

/-- The gain 1 − decay of every neuron from the vector of time constants. -/
def vecGain (tau : S512.Idx → EReal) : S512.Idx → EReal := fun i => Ideal.ofBits .f32 0x3F800000#32 - decay (tau i)

variable (m : (ℓ : Loc nD τ sig) → Buf (Elt Ideal) ℓ)

/-- The dense weights the region stages are the argument's. -/
theorem dense_weights (c : Dev nD) :
    (V m c main_v0 : S512x256.Idx → EReal) = (m ((c : Thread nD τ).loc main_arg3) : S512x256.Idx → EReal) := by
  dsimp only [Gen.V, Gen.hostOps0]; after_results; rfl

/-- The recurrent weights the region stages are the argument's. -/
theorem recur_weights (c : Dev nD) :
    (V m c main_v1 : S512x512.Idx → EReal) = (m ((c : Thread nD τ).loc main_arg5) : S512x512.Idx → EReal) := by
  dsimp only [Gen.V, Gen.hostOps0]; after_results; rfl

/-- The bias vector the region stages is the sum of the two bias arguments. -/
theorem bias (c : Dev nD) :
    (V m c main_v2 : S512.Idx → EReal)
      = vecSum (m ((c : Thread nD τ).loc main_arg4)) (m ((c : Thread nD τ).loc main_arg6)) := by
  dsimp only [Gen.V, Gen.hostOps0]; after_results; rfl

/-- The decay vector the region stages: exp(−1/τ) of the time-constant argument, neuron by neuron. -/
theorem decays (c : Dev nD) :
    (V m c main_v5 : S512.Idx → EReal) = vecDecay (m ((c : Thread nD τ).loc main_arg7)) := by
  dsimp only [Gen.V, Gen.hostOps0]; after_results; rfl

/-- The gain vector the region stages: 1 − decay, neuron by neuron. -/
theorem gains (c : Dev nD) :
    (V m c main_v7 : S512.Idx → EReal) = vecGain (m ((c : Thread nD τ).loc main_arg7)) := by
  dsimp only [Gen.V, Gen.hostOps0]; after_results; rfl

end Cert.KernelIdeal.Host

end
-- ==== Proof.BlocksToArray.lean ====
/-
  From the blocks the kernel writes to its two whole result arrays.

  The grid has 32 points; point t works on batch rows 1024·t … 1024·t + 1023.  The input spikes, the potentials, the
  previous spikes and both results are cut into blocks of 1024 rows that move with the point; the two weight
  matrices, the bias, the decay and the gain are staged whole at every point.  So entry (r, o) of a block at point t is
  entry (1024·t + r, o) of its array, the contracted coordinate of each product is untouched by the cut, and what
  point t writes back is block t of the layer step of LifSpec applied to the whole arrays.  Every row lies in exactly the
  block of point row / 1024, so the blocks cover both result arrays.
-/
import proofs.«169961_j49082886259318_2_alg».proof.Proof.Gen.KernelIdeal.Value
import proofs.«169961_j49082886259318_2_alg».proof.Proof.KernelPayload
import proofs.«169961_j49082886259318_2_alg».proof.Proof.HostPrefix
import proofs.«169961_j49082886259318_2_alg».proof.Proof.LifSpec
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Cert.Lif
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The block index of every window at every grid point: the five row-blocked windows are at block (t, 0), the five
    staged whole at block zero (decided over the 32 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 ∧ win0_6.index t (0 : Fin 1) = 0 ∧ win0_7.index t (0 : Fin 1) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## Each input block as entries of its array -/

/-- Row `r` of the input-spike block at point `t` is row 1024·t + r of the argument. -/
theorem input_rows (c : Dev nD) (t : Fin cfg0.N) (y : S1024x256.Idx) (k : S32768x256.Idx)
    (h0 : (k 0).val = 1024 * t.val + (y 0).val) (h1 : (k 1).val = (y 1).val) :
    (iblk m c 0 t : Vec Ideal S1024x256 .f32) y = (m ((c : Thread nD τ).loc main_arg0) : S32768x256.Idx → EReal) k := by
  obtain ⟨e0, e1, -⟩ := block_index t
  refine Eq.trans ?_ (congrFun (V_main_arg0 m c) k)
  unfold iblk
  rw [View.read_apply]
  show V m c main_arg0 _ = V m c main_arg0 _
  congr 1
  funext a; apply Fin.ext
  match a with
  | ⟨0, _⟩ => show win0_0.index t (0 : Fin 2) * 1024 + 1 * (y 0).val = (k 0).val; rw [e0, h0]; omega
  | ⟨1, _⟩ => show win0_0.index t (1 : Fin 2) * 256 + 1 * (y 1).val = (k 1).val; rw [e1, h1]; omega

/-- Row `r` of the potentials block at point `t` is row 1024·t + r of the argument. -/
theorem potential_rows (c : Dev nD) (t : Fin cfg0.N) (y : S1024x512.Idx) (k : S32768x512.Idx)
    (h0 : (k 0).val = 1024 * t.val + (y 0).val) (h1 : (k 1).val = (y 1).val) :
    (iblk m c 1 t : Vec Ideal S1024x512 .f32) y = (m ((c : Thread nD τ).loc main_arg1) : S32768x512.Idx → EReal) k := by
  obtain ⟨-, -, e0, e1, -⟩ := block_index t
  refine Eq.trans ?_ (congrFun (V_main_arg1 m c) k)
  unfold iblk
  rw [View.read_apply]
  show V m c main_arg1 _ = V m c main_arg1 _
  congr 1
  funext a; apply Fin.ext
  match a with
  | ⟨0, _⟩ => show win0_1.index t (0 : Fin 2) * 1024 + 1 * (y 0).val = (k 0).val; rw [e0, h0]; omega
  | ⟨1, _⟩ => show win0_1.index t (1 : Fin 2) * 512 + 1 * (y 1).val = (k 1).val; rw [e1, h1]; omega

/-- Row `r` of the previous-spikes block at point `t` is row 1024·t + r of the argument. -/
theorem spike_rows (c : Dev nD) (t : Fin cfg0.N) (y : S1024x512.Idx) (k : S32768x512.Idx)
    (h0 : (k 0).val = 1024 * t.val + (y 0).val) (h1 : (k 1).val = (y 1).val) :
    (iblk m c 2 t : Vec Ideal S1024x512 .f32) y = (m ((c : Thread nD τ).loc main_arg2) : S32768x512.Idx → EReal) k := by
  obtain ⟨-, -, -, -, e0, e1, -⟩ := block_index t
  refine Eq.trans ?_ (congrFun (V_main_arg2 m c) k)
  unfold iblk
  rw [View.read_apply]
  show V m c main_arg2 _ = V m c main_arg2 _
  congr 1
  funext a; apply Fin.ext
  match a with
  | ⟨0, _⟩ => show win0_2.index t (0 : Fin 2) * 1024 + 1 * (y 0).val = (k 0).val; rw [e0, h0]; omega
  | ⟨1, _⟩ => show win0_2.index t (1 : Fin 2) * 512 + 1 * (y 1).val = (k 1).val; rw [e1, h1]; omega

/-- The dense weights are staged whole at every point: the block is the argument. -/
theorem dense_weights_whole (c : Dev nD) (t : Fin cfg0.N) (y : S512x256.Idx) :
    (iblk m c 3 t : Vec Ideal S512x256 .bf16) y = (m ((c : Thread nD τ).loc main_arg3) : S512x256.Idx → EReal) y := by
  obtain ⟨-, -, -, -, -, -, e0, e1, -⟩ := block_index t
  refine Eq.trans ?_ (congrFun (Host.dense_weights m c) y)
  unfold iblk
  rw [View.read_apply]
  show V m c main_v0 _ = V m c main_v0 _
  congr 1
  funext a; apply Fin.ext
  match a with
  | ⟨0, _⟩ => show win0_3.index t (0 : Fin 2) * 512 + 1 * (y 0).val = (y 0).val; rw [e0]; omega
  | ⟨1, _⟩ => show win0_3.index t (1 : Fin 2) * 256 + 1 * (y 1).val = (y 1).val; rw [e1]; omega

/-- The recurrent weights are staged whole at every point: the block is the argument. -/
theorem recur_weights_whole (c : Dev nD) (t : Fin cfg0.N) (y : S512x512.Idx) :
    (iblk m c 4 t : Vec Ideal S512x512 .bf16) y = (m ((c : Thread nD τ).loc main_arg5) : S512x512.Idx → EReal) y := by
  obtain ⟨-, -, -, -, -, -, -, -, e0, e1, -⟩ := block_index t
  refine Eq.trans ?_ (congrFun (Host.recur_weights m c) y)
  unfold iblk
  rw [View.read_apply]
  show V m c main_v1 _ = V m c main_v1 _
  congr 1
  funext a; apply Fin.ext
  match a with
  | ⟨0, _⟩ => show win0_4.index t (0 : Fin 2) * 512 + 1 * (y 0).val = (y 0).val; rw [e0]; omega
  | ⟨1, _⟩ => show win0_4.index t (1 : Fin 2) * 512 + 1 * (y 1).val = (y 1).val; rw [e1]; omega

/-- The bias block is the sum of the two bias arguments. -/
theorem bias_whole (c : Dev nD) (t : Fin cfg0.N) (y : S512.Idx) :
    (iblk m c 5 t : Vec Ideal S512 .f32) y
      = Host.vecSum (m ((c : Thread nD τ).loc main_arg4)) (m ((c : Thread nD τ).loc main_arg6)) y := by
  obtain ⟨-, -, -, -, -, -, -, -, -, -, e0, -⟩ := block_index t
  refine Eq.trans ?_ (congrFun (Host.bias m c) y)
  unfold iblk
  rw [View.read_apply]
  show V m c main_v2 _ = V m c main_v2 _
  congr 1
  funext a; apply Fin.ext
  match a with
  | ⟨0, _⟩ => show win0_5.index t (0 : Fin 1) * 512 + 1 * (y 0).val = (y 0).val; rw [e0]; omega

/-- The decay block is the decay of the time-constant argument. -/
theorem decay_whole (c : Dev nD) (t : Fin cfg0.N) (y : S512.Idx) :
    (iblk m c 6 t : Vec Ideal S512 .f32) y = Host.vecDecay (m ((c : Thread nD τ).loc main_arg7)) y := by
  obtain ⟨-, -, -, -, -, -, -, -, -, -, -, e0, -⟩ := block_index t
  refine Eq.trans ?_ (congrFun (Host.decays m c) y)
  unfold iblk
  rw [View.read_apply]
  show V m c main_v5 _ = V m c main_v5 _
  congr 1
  funext a; apply Fin.ext
  match a with
  | ⟨0, _⟩ => show win0_6.index t (0 : Fin 1) * 512 + 1 * (y 0).val = (y 0).val; rw [e0]; omega

/-- The gain block is one less the decay of the time-constant argument. -/
theorem gain_whole (c : Dev nD) (t : Fin cfg0.N) (y : S512.Idx) :
    (iblk m c 7 t : Vec Ideal S512 .f32) y = Host.vecGain (m ((c : Thread nD τ).loc main_arg7)) y := by
  obtain ⟨-, -, -, -, -, -, -, -, -, -, -, -, e0, -⟩ := block_index t
  refine Eq.trans ?_ (congrFun (Host.gains m c) y)
  unfold iblk
  rw [View.read_apply]
  show V m c main_v7 _ = V m c main_v7 _
  congr 1
  funext a; apply Fin.ext
  match a with
  | ⟨0, _⟩ => show win0_7.index t (0 : Fin 1) * 512 + 1 * (y 0).val = (y 0).val; rw [e0]; omega

/-! ## One block's value is the layer step at the array's entry -/

/-- The block expression of point `t` at block entry `y` is the new potential at array entry `i`, when `i` is row
    1024·t + (row of y), same neuron. -/
theorem block_potential (c : Dev nD) (t : Fin cfg0.N) (y : S1024x512.Idx) (i : S32768x512.Idx)
    (h0 : (i 0).val = 1024 * t.val + (y 0).val) (h1 : (i 1).val = (y 1).val) :
    Body.blockPotential (iblk m c 0 t) (iblk m c 2 t) (iblk m c 3 t) (iblk m c 4 t) (iblk m c 5 t) (iblk m c 6 t) (iblk m c 7 t) (iblk m c 1 t) (y 0) (y 1)
      = potentials (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  exact Body.blockPotential_eq_layer (iblk m c 0 t) (iblk m c 2 t) (iblk m c 3 t) (iblk m c 4 t) (iblk m c 5 t) (iblk m c 6 t) (iblk m c 7 t) (iblk m c 1 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (y 0) (y 1) i (Fin.ext h1)
    (fun k => input_rows m c t (ix2 (y 0) k) (ix2 (i 0) k) h0 rfl)
    (fun h => spike_rows m c t (ix2 (y 0) h) (ix2 (i 0) h) h0 rfl)
    (spike_rows m c t (ix2 (y 0) (y 1)) i h0 h1)
    (potential_rows m c t (ix2 (y 0) (y 1)) i h0 h1)
    (fun k => dense_weights_whole m c t (ix2 (y 1) k))
    (fun h => recur_weights_whole m c t (ix2 (y 1) h))
    (bias_whole m c t (ix1 (y 1)))
    (decay_whole m c t (ix1 (y 1)))
    (gain_whole m c t (ix1 (y 1)))

/-! ## What each point writes back, the cover, and the two arrays after the run -/

/-- Point `t` writes back block `t` of the new potentials. -/
theorem flushed_potentials (c : Dev nD) (t : Fin cfg0.N) :
    (dats m 0 c).flushed 8 t = ((cfg0.win 8).blk t).view.read (Elt Ideal) (potentials (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨-, -, -, -, -, -, -, -, -, -, -, -, -, e0, e1, -⟩ := block_index t
  rw [Value.flushed8]
  unfold out0_8
  rw [View.canon_unit_zero origin2]
  simp only [View.ld_unit_zero (S := S1024x256) origin2, View.ld_unit_zero (S := S1024x512) origin2,
    View.ld_unit_zero (S := S512x256) origin2, View.ld_unit_zero (S := S512x512) origin2, View.ld_unit_zero (S := S512) origin1]
  funext j
  show k0_pay1 (F := Ideal) (iblk m c 0 t) (iblk m c 2 t) (iblk m c 3 t) (iblk m c 4 t) (iblk m c 5 t) (iblk m c 6 t) (iblk m c 7 t) (iblk m c 1 t) j
    = potentials (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb j)
  refine (Body.potential_at (iblk m c 0 t) (iblk m c 2 t) (iblk m c 3 t) (iblk m c 4 t) (iblk m c 5 t) (iblk m c 6 t) (iblk m c 7 t) (iblk m c 1 t) j).trans ?_
  refine block_potential m c t j _ ?_ ?_
  · show win0_8.index t (0 : Fin 2) * 1024 + 1 * (j 0).val = 1024 * t.val + (j 0).val; rw [e0]; omega
  · show win0_8.index t (1 : Fin 2) * 512 + 1 * (j 1).val = (j 1).val; rw [e1]; omega

/-- Point `t` writes back block `t` of the new spikes. -/
theorem flushed_spikes (c : Dev nD) (t : Fin cfg0.N) :
    (dats m 0 c).flushed 9 t = ((cfg0.win 9).blk t).view.read (Elt Ideal) (spikes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨-, -, -, -, -, -, -, -, -, -, -, -, -, -, -, e0, e1⟩ := block_index t
  rw [Value.flushed9]
  unfold out0_9
  rw [View.canon_unit_zero origin2]
  simp only [View.ld_unit_zero (S := S1024x256) origin2, View.ld_unit_zero (S := S1024x512) origin2,
    View.ld_unit_zero (S := S512x256) origin2, View.ld_unit_zero (S := S512x512) origin2, View.ld_unit_zero (S := S512) origin1]
  funext j
  show k0_pay2 (F := Ideal) (iblk m c 0 t) (iblk m c 2 t) (iblk m c 3 t) (iblk m c 4 t) (iblk m c 5 t) (iblk m c 6 t) (iblk m c 7 t) (iblk m c 1 t) j
    = spikes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 9).blk t).view.emb j)
  refine (Body.spike_at (iblk m c 0 t) (iblk m c 2 t) (iblk m c 3 t) (iblk m c 4 t) (iblk m c 5 t) (iblk m c 6 t) (iblk m c 7 t) (iblk m c 1 t) j).trans ?_
  unfold spikes
  refine congrArg (fun v => indicator (fires v)) (block_potential m c t j _ ?_ ?_)
  · show win0_9.index t (0 : Fin 2) * 1024 + 1 * (j 0).val = 1024 * t.val + (j 0).val; rw [e0]; omega
  · show win0_9.index t (1 : Fin 2) * 512 + 1 * (j 1).val = (j 1).val; rw [e1]; omega

/-- Every entry of the potentials array is in the block of the point its row falls in. -/
theorem cover_potentials (i : S32768x512.Idx) :
    ∃ t : Fin cfg0.N, (cfg0.win 8).flush t = true ∧ i ∈ ((cfg0.win 8).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, -, -, -, -, -, -, -, -, -, e0, e1, -⟩ := block_index t
  have ht : t.val = (i 0).val / 1024 := rfl
  refine ⟨t, flush0_8 t, ?_⟩
  show i ∈ ((View.whole main_v8_0).slice (win0_8.rect t)).set
  rw [View.set_slice_whole, Rect.mem_set_unit]
  intro a
  match a with
  | ⟨0, _⟩ => show win0_8.index t (0 : Fin 2) * 1024 ≤ (i 0).val ∧ (i 0).val < win0_8.index t (0 : Fin 2) * 1024 + 1024; rw [e0, ht]; omega
  | ⟨1, _⟩ => show win0_8.index t (1 : Fin 2) * 512 ≤ (i 1).val ∧ (i 1).val < win0_8.index t (1 : Fin 2) * 512 + 512; rw [e1]; omega

/-- Every entry of the spikes array is in the block of the point its row falls in. -/
theorem cover_spikes (i : S32768x512.Idx) :
    ∃ t : Fin cfg0.N, (cfg0.win 9).flush t = true ∧ i ∈ ((cfg0.win 9).blk t).view.set := by
  have hi0 : (i 0).val < 32768 := (i 0).isLt
  have hi1 : (i 1).val < 512 := (i 1).isLt
  have hN : cfg0.N = 32 := N_0
  let t : Fin cfg0.N := ⟨(i 0).val / 1024, by rw [hN]; omega⟩
  obtain ⟨-, -, -, -, -, -, -, -, -, -, -, -, -, -, -, e0, e1⟩ := block_index t
  have ht : t.val = (i 0).val / 1024 := rfl
  refine ⟨t, flush0_9 t, ?_⟩
  show i ∈ ((View.whole main_v8_1).slice (win0_9.rect t)).set
  rw [View.set_slice_whole, Rect.mem_set_unit]
  intro a
  match a with
  | ⟨0, _⟩ => show win0_9.index t (0 : Fin 2) * 1024 ≤ (i 0).val ∧ (i 0).val < win0_9.index t (0 : Fin 2) * 1024 + 1024; rw [e0, ht]; omega
  | ⟨1, _⟩ => show win0_9.index t (1 : Fin 2) * 512 ≤ (i 1).val ∧ (i 1).val < win0_9.index t (1 : Fin 2) * 512 + 512; rw [e1]; omega

/-- After the run the first result array holds the new potentials. -/
theorem final_potentials (c : Dev nD) :
    (dats m 0 c).arrAt 8 cfg0.N = potentials (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_potentials m c t) cover_potentials

/-- After the run the second result array holds the new spikes. -/
theorem final_spikes (c : Dev nD) :
    (dats m 0 c).arrAt 9 cfg0.N = spikes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 _ (fun t _ => flushed_spikes m c t) cover_spikes

/-- The kernel's run, read: both results at the layer step of the arguments, the arguments unchanged. -/
theorem run : θ_run defs (onTc (τ := τ) (main (F := Ideal))) ⟨m, fun _ => 0, ρ⟩ fun r => ∀ c : Dev nD,
      r.2.mem ((c : Thread nD τ).loc main_v8_0) = potentials (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v8_1) = spikes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_potentials m c), (h c).2.1.trans (final_spikes m c), (h c).2.2⟩)
    (Value.run_blocks m ρ)

end Cert.KernelIdeal.Whole

end
-- ==== Proof.lean ====
/-
  A fused kernel for one time step of a layer of leaky integrate-and-fire neurons against its plain reference, on the
  extended reals.

  Both programs take input spikes x [32768, 256], potentials v and previous spikes s [32768, 512], dense weights
  Wd [512, 256] with bias bd, recurrent weights Wr [512, 512] with bias br, and time constants τ [512], and return
      v'(p, o) = v(p, o) · a(o) + (1 − a(o)) · I(p, o) − ½ · s(p, o),      s'(p, o) = [ v'(p, o) − ½ > 0 ],
  where a(o) = exp(−1/τ(o)) and I(p, o) = Σ_k x(p, k) Wd(o, k) + Σ_h s(p, h) Wr(o, h) + bd(o) + br(o).

  The kernel prepares bd + br, a and 1 − a once, narrows the weights to a shorter float format (the identity on the
  extended reals), and sweeps the batch in 32 blocks of 1024 rows, each block doing both products, the update and the
  threshold; the reference does the same arithmetic on whole arrays.  The two differ only in the order in which the
  current's four terms are added — (dense + recurrent) + (bd + br) against ((dense + bd) + recurrent) + br — and in how
  the truth value of the threshold is turned into a number (the bit widened to a word and read signed, against the bit
  read unsigned).  Addition on the extended reals is commutative and associative, and both readings of a bit are 0 or
  1, so the results agree for every input; the finiteness of the inputs is not used.

  The modules: LifSpec (the step as one function of the arrays, and the two laws), RefIsSpec (the reference's results
  are that function), KernelPayload (one block's stores at an entry), HostPrefix (the arrays the kernel prepares),
  BlocksToArray (the blocks the 32 points write back are the blocks of that function, and cover both results).
-/
import proofs.«169961_j49082886259318_2_alg».proof.Defs
import proofs.«169961_j49082886259318_2_alg».proof.Proof.Gen.Kernel
import proofs.«169961_j49082886259318_2_alg».proof.Proof.Gen.Kernel.Skeleton
import proofs.«169961_j49082886259318_2_alg».proof.Proof.Gen.Kernel.Launch
import proofs.«169961_j49082886259318_2_alg».proof.Proof.Gen.Kernel.Points
import proofs.«169961_j49082886259318_2_alg».proof.Proof.Gen.Kernel.Frame
import proofs.«169961_j49082886259318_2_alg».proof.Proof.Gen.KernelIdeal
import proofs.«169961_j49082886259318_2_alg».proof.Proof.Gen.KernelIdeal.Skeleton
import proofs.«169961_j49082886259318_2_alg».proof.Proof.Gen.KernelIdeal.Launch
import proofs.«169961_j49082886259318_2_alg».proof.Proof.Gen.KernelIdeal.Points
import proofs.«169961_j49082886259318_2_alg».proof.Proof.Gen.KernelIdeal.Frame
import proofs.«169961_j49082886259318_2_alg».proof.Proof.Gen.ReferenceIdeal
import proofs.«169961_j49082886259318_2_alg».proof.Proof.Gen.Pre_finite_inputs
import proofs.«169961_j49082886259318_2_alg».proof.Proof.Gen.KernelIdeal.Value
import proofs.«169961_j49082886259318_2_alg».proof.Proof.Gen.ReferenceIdeal.Run
import proofs.«169961_j49082886259318_2_alg».proof.Proof.Gen.ReferenceIdeal.Read
import proofs.«169961_j49082886259318_2_alg».proof.Proof.LifSpec
import proofs.«169961_j49082886259318_2_alg».proof.Proof.RefIsSpec
import proofs.«169961_j49082886259318_2_alg».proof.Proof.BlocksToArray
import Idealize.ShloMosaic.Adequacy
import Idealize.ShloMosaic.Init

noncomputable section

namespace Cert.Proof

open Idealize.ShloMosaic Idealize.SL.Sem Cert.Lif

/-- The kernel as printed runs to the end and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing of the kernel's text was rewritten to read it on the extended reals. -/
theorem preserves : Cert.preserves_Kernel_KernelIdeal := trivial

/-- From arguments that agree, the kernel ends with both results at the layer step of its arguments (the blocks of the
    32 points, put together) and the reference at the same step of its own (its two results read entry by entry):
    equal arrays. -/
theorem algebraic : Cert.algebraic_KernelIdeal_ReferenceIdeal := by
  intro m ρ m' ρ' _ hagree
  refine ⟨fun c => potentials (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => spikes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v23_eq, Cert.ReferenceIdeal.RefValue.potentials_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]
  · rw [Cert.ReferenceIdeal.Read.val_main_v28_eq, Cert.ReferenceIdeal.RefValue.spikes_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
